-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8x4096x1024 : Shape := ⟨3, ![8, 4096, 1024]⟩
abbrev S8x4096 : Shape := ⟨2, ![8, 4096]⟩
abbrev S8 : Shape := ⟨1, ![8]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S8x4096x1024 : S_.BroadcastsInDim S8x4096x1024 (![] : Fin 0 → Fin S8x4096x1024.rank)
  reducesTo_S8x4096x1024_S_d0_1_2 : S8x4096x1024.ReducesTo [0, 1, 2] S_
  bcast_S_S8x4096 : S_.BroadcastsInDim S8x4096 (![] : Fin 0 → Fin S8x4096.rank)
  reducesTo_S8x4096_S_d0_1 : S8x4096.ReducesTo [0, 1] S_

variable [Facts]

def fn {F : FTy → Type} [FloatOps F] (main_arg0 : FVec F S8192x1024 .f32) (main_arg1 : FVec F S8x4096x1024 .f32) (main_arg2 : FVec F S8x4096 .f32) (main_arg3 : IVec S8 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8x4096x1024 .f32 := Host.absf main_arg1
  let main_cst_0 : FVec F S_ .f32 := constant S_ .f32 0x7F800000#32
  let main_v5 : FVec F S8x4096x1024 .f32 := broadcastInDim S8x4096x1024 ![] bcast_S_S8x4096x1024 main_cst_0
  let main_v6 : IVec S8x4096x1024 1 := cmpf .olt main_v4 main_v5
  let main_c_1 : IVec S_ 1 := constantI S_ 1 1#1
  let main_v7 : IVec S_ 1 := (fun x v => Host.reduce IntOp.andi x v reducesTo_S8x4096x1024_S_d0_1_2 h_S_) main_v6 main_c_1
  let main_v8 : IVec S_ 1 := andi main_v3 main_v7
  let main_v9 : FVec F S8x4096 .f32 := Host.absf main_arg2
  let main_cst_2 : FVec F S_ .f32 := constant S_ .f32 0x7F800000#32
  let main_v10 : FVec F S8x4096 .f32 := broadcastInDim S8x4096 ![] bcast_S_S8x4096 main_cst_2
  let main_v11 : IVec S8x4096 1 := cmpf .olt main_v9 main_v10
  let main_c_3 : IVec S_ 1 := constantI S_ 1 1#1
  let main_v12 : IVec S_ 1 := (fun x v => Host.reduce IntOp.andi x v reducesTo_S8x4096_S_d0_1 h_S_) main_v11 main_c_3
  let main_v13 : IVec S_ 1 := andi main_v8 main_v12
  main_v13
-- ==== Kernel.lean ====
abbrev S8192x1024 : Shape := ⟨2, ![8192, 1024]⟩
abbrev S8x4096x1024 : Shape := ⟨3, ![8, 4096, 1024]⟩
abbrev S8x4096 : Shape := ⟨2, ![8, 4096]⟩
abbrev S8 : Shape := ⟨1, ![8]⟩
abbrev S8x1024x1024 : Shape := ⟨3, ![8, 1024, 1024]⟩
abbrev S8x1x4096 : Shape := ⟨3, ![8, 1, 4096]⟩
abbrev S8x1024x4096 : Shape := ⟨3, ![8, 1024, 4096]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩
abbrev S8192x4096 : Shape := ⟨2, ![8192, 4096]⟩

abbrev nBuf : Space → Nat
  | .hbm => 8
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S8x4096x1024, .f32⟩
  | .hbm, ⟨2, _⟩ => ⟨S8x4096, .f32⟩
  | .hbm, ⟨3, _⟩ => ⟨S8, .i32⟩
  | .hbm, ⟨4, _⟩ => ⟨S8x1024x1024, .f32⟩
  | .hbm, ⟨5, _⟩ => ⟨S8x1x4096, .f32⟩
  | .hbm, ⟨6, _⟩ => ⟨S8x1024x4096, .f32⟩
  | .hbm, ⟨7, _⟩ => ⟨S8192x4096, .f32⟩
  | .local _ .vmem, ⟨0, _⟩ => ⟨S1x1024x1024, .f32⟩
  | .local _ .vmem, ⟨1, _⟩ => ⟨S1x1024x1024, .f32⟩
  | .local _ .vmem, ⟨2, _⟩ => ⟨S1x1024x1024, .f32⟩
  | .local _ .vmem, ⟨3, _⟩ => ⟨S1x1024x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024x1024, .f32⟩
  | .local _ .vmem, ⟨7, _⟩ => ⟨S1x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  shapeCasts_S8192x1024_S8x1024x1024 : S8192x1024.ShapeCasts S8x1024x1024
  shapeCasts_S8x4096_S8x1x4096 : S8x4096.ShapeCasts S8x1x4096
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  broadcasts_S1x1024_S1024x1024 : S1x1024.Broadcasts S1024x1024
  shapeCasts_S1024x1024_S1x1024x1024 : S1024x1024.ShapeCasts S1x1024x1024
  shapeCasts_S8x1024x4096_S8192x4096 : S8x1024x4096.ShapeCasts S8192x4096
  dot_S1024x1024_S1024x1024_S1024x1024_1_1_0_0_n_n_wf : DotDims.WF S1024x1024 S1024x1024 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S8x1024x1024.size a
  hwx0_0 : ∀ i : grid0.Coords, EltTy.bits .f32 = 32 ∨ (Rect.block (s := S8x1024x1024) S1x1024x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x1024.size a ≤ S8x4096x1024.size a
  hwx0_1 : ∀ i : grid0.Coords, EltTy.bits .f32 = 32 ∨ (Rect.block (s := S8x4096x1024) S1x1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x1024.size a ≤ S8x1x4096.size a
  hwx0_2 : ∀ i : grid0.Coords, EltTy.bits .f32 = 32 ∨ (Rect.block (s := S8x1x4096) S1x1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S8x1024x4096.size a
  hwx0_3 : ∀ i : grid0.Coords, EltTy.bits .f32 = 32 ∨ (Rect.block (s := S8x1024x4096) S1x1024x1024.size (cc0_transform_3 i) (hinb0_3 i)).WholeWords (EltTy.packing .f32)

variable [Facts₀]

def dot_S1024x1024_S1024x1024_S1024x1024_1_1_0_0_n_n : DotDims S1024x1024 S1024x1024 S1024x1024 where
  lhsContracting := [1]
  rhsContracting := [1]
  lhsNonContracting := [0]
  rhsNonContracting := [0]
  lhsBatch := []
  rhsBatch := []
  wf := dot_S1024x1024_S1024x1024_S1024x1024_1_1_0_0_n_n_wf

abbrev win0_0 : Pipeline.Window sig grid0 :=
  Pipeline.Window.ofSpec (Memref.whole main_v0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S8x4096x1024 : Shape := ⟨3, ![8, 4096, 1024]⟩
abbrev S8x4096 : Shape := ⟨2, ![8, 4096]⟩
abbrev S8 : Shape := ⟨1, ![8]⟩
abbrev S8x1024x1024 : Shape := ⟨3, ![8, 1024, 1024]⟩
abbrev S8x1024x4096 : Shape := ⟨3, ![8, 1024, 4096]⟩
abbrev S8x1x4096 : Shape := ⟨3, ![8, 1, 4096]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8x4096x1024, .f32⟩
  | .hbm, ⟨2, _⟩ => ⟨S8x4096, .f32⟩
  | .hbm, ⟨3, _⟩ => ⟨S8, .i32⟩
  | .hbm, ⟨4, _⟩ => ⟨S8x1024x1024, .f32⟩
  | .hbm, ⟨5, _⟩ => ⟨S8x1024x4096, .f32⟩
  | .hbm, ⟨6, _⟩ => ⟨S8x1x4096, .f32⟩
  | .hbm, ⟨7, _⟩ => ⟨S8x1024x4096, .f32⟩
  | .hbm, ⟨8, _⟩ => ⟨S8x1024x4096, .f32⟩
  | .hbm, ⟨9, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]

class Facts₀ : Prop where
  shapeCasts_S8192x1024_S8x1024x1024 : S8192x1024.ShapeCasts S8x1024x1024
  bcast_S8x4096_S8x1x4096_0_2 : S8x4096.BroadcastsInDim S8x1x4096 (![0, 2] : Fin 2 → Fin S8x1x4096.rank)
  bcast_S8x1x4096_S8x1024x4096_0_1_2 : S8x1x4096.BroadcastsInDim S8x1024x4096 (![0, 1, 2] : Fin 3 → Fin S8x1024x4096.rank)
  shapeCasts_S8x1024x4096_S8192x4096 : S8x1024x4096.ShapeCasts S8192x4096
  dot_S8x1024x1024_S8x4096x1024_S8x1024x4096_2_2_1_1_0_0_wf : DotDims.WF S8x1024x1024 S8x4096x1024 S8x1024x4096 [2] [2] [1] [1] [0] [0]

variable [Facts₀]

def dot_S8x1024x1024_S8x4096x1024_S8x1024x4096_2_2_1_1_0_0 : DotDims S8x1024x1024 S8x4096x1024 S8x1024x4096 where
  lhsContracting := [2]
  rhsContracting := [2]
  lhsNonContracting := [1]
  rhsNonContracting := [1]
  lhsBatch := [0]
  rhsBatch := [0]
  wf := dot_S8x1024x1024_S8x4096x1024_S8x1024x4096_2_2_1_1_0_0_wf

class Facts : Prop extends Facts₀ where

variable [Facts]
-- ==== Proof.GroupedLinear.lean ====
/-
  The function both programs compute, before the final flattening of the token axis.

  Tokens come grouped by expert: group `e` (of 8) holds 1024 tokens, each a row of 1024 features. Expert `e` has its
  own weight matrix (4096 output features by 1024 input features) and its own bias row. The result at
  (expert `e`, token `t`, output feature `o`) is the inner product of token `t`'s row with row `o` of expert `e`'s
  weights, plus that expert's bias at `o`:

      out e t o = (∑ k, x e t k · w e o k) + b e o

  over the extended reals. No law beyond this formula is needed: both sides are literally this sum, so finiteness of
  the inputs is never used.
-/
import Idealize.ShloMosaic.PureOps.Ideal
import Idealize.ShloMosaic.Lib.ValueIdx

noncomputable section

open scoped BigOperators

namespace Cert.GroupedLinear

open Idealize.ShloMosaic Idealize.ShloMosaic.ValueIdx

/-- Output feature `q` of the `n`-th tile of 1024 output features. -/
abbrev col (n : Fin 4) (q : Fin 1024) : Fin 4096 := ⟨n.val * 1024 + q.val, by omega⟩

/-- The result at expert `e`, token `t` of its group, output feature `o`: the token's row against the expert's
    weight row `o`, plus the expert's bias there. The bias is held with a unit middle axis, as both programs hold it. -/
def entry (xg : (⟨3, ![8, 1024, 1024]⟩ : Shape).Idx → EReal) (w : (⟨3, ![8, 4096, 1024]⟩ : Shape).Idx → EReal)
    (bg : (⟨3, ![8, 1, 4096]⟩ : Shape).Idx → EReal) (e : Fin 8) (t : Fin 1024) (o : Fin 4096) : EReal :=
  (∑ k : Fin 1024, xg (ix3 e t k) * w (ix3 e o k)) + bg (ix3 e (0 : Fin 1) o)

/-- The whole grouped result, index by index. -/
def out (xg : (⟨3, ![8, 1024, 1024]⟩ : Shape).Idx → EReal) (w : (⟨3, ![8, 4096, 1024]⟩ : Shape).Idx → EReal)
    (bg : (⟨3, ![8, 1, 4096]⟩ : Shape).Idx → EReal) : (⟨3, ![8, 1024, 4096]⟩ : Shape).Idx → EReal :=
  fun i => entry xg w bg (i 0) (i 1) (i 2)

theorem out_apply (xg : (⟨3, ![8, 1024, 1024]⟩ : Shape).Idx → EReal) (w : (⟨3, ![8, 4096, 1024]⟩ : Shape).Idx → EReal)
    (bg : (⟨3, ![8, 1, 4096]⟩ : Shape).Idx → EReal) (e : Fin 8) (t : Fin 1024) (o : Fin 4096) :
    out xg w bg (ix3 e t o) = entry xg w bg e t o := rfl

end Cert.GroupedLinear

end
-- ==== Proof.BlockProduct.lean ====
/-
  What the kernel body stores at one grid point, read at an index of the block.

  The body holds a block of 1024 token rows (one expert's group), a block of 1024 weight rows (one tile of that
  expert's output features) and the matching 1024 bias entries. It multiplies the token block by the transposed
  weight block, contracting the feature axis of both, into a zero accumulator, and adds the bias row to every token's
  row. At row `p`, column `q` of the block that is  (∑ k, tokens p k · weights q k) + bias q.  Rounding the operands to
  a narrower format before the product is the identity on the extended reals.
-/
import proofs.«116449_j55551107007175_2_alg».proof.Proof.Gen.KernelIdeal.Skeleton
import proofs.«116449_j55551107007175_2_alg».proof.Proof.GroupedLinear
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.Block

open Cert.KernelIdeal Cert.KernelIdeal.Gen Idealize.ShloMosaic Idealize.ShloMosaic.ValueIdx

/-- The body's product: rows of the left operand against rows of the right, one contracted axis of 1024. -/
abbrev D : DotDims S1024x1024 S1024x1024 S1024x1024 := dot_S1024x1024_S1024x1024_S1024x1024_1_1_0_0_n_n

/-- The left operand is read at the output's row … -/
theorem lhs_row (j : S1024x1024.Idx) (r : D.contr.Idx) : (D.lhsIdx j r 0).val = (j 0).val := by
  unfold DotDims.lhsIdx
  rw [dif_neg (show ¬(0 : Fin S1024x1024.rank) ∈ D.lhsBatch by decide),
    dif_pos (show (0 : Fin S1024x1024.rank) ∈ D.lhsNonContracting by decide)]
  rfl
/-- … and the contracted feature; -/
theorem lhs_feat (j : S1024x1024.Idx) (r : D.contr.Idx) : (D.lhsIdx j r 1).val = (r ⟨0, by decide⟩).val :=
  D.lhsIdx_val_of_single rfl j r
/-- the right operand at the output's COLUMN (its own row: the product is against the transpose) … -/
theorem rhs_row (j : S1024x1024.Idx) (r : D.contr.Idx) : (D.rhsIdx j r 0).val = (j 1).val := by
  unfold DotDims.rhsIdx
  rw [dif_neg (show ¬(0 : Fin S1024x1024.rank) ∈ D.rhsBatch by decide),
    dif_pos (show (0 : Fin S1024x1024.rank) ∈ D.rhsNonContracting by decide)]
  rfl
/-- … and the contracted feature. -/
theorem rhs_feat (j : S1024x1024.Idx) (r : D.contr.Idx) : (D.rhsIdx j r 1).val = (r ⟨0, by decide⟩).val :=
  D.rhsIdx_val_of_single rfl j r

/-- The product into the zero accumulator at (p, q): the sum over the 1024 features of left (p, k) · right (q, k). -/
theorem product_apply (a b : FVec Ideal S1024x1024 .bf16) (p q : Fin 1024) :
    matmul D none a b (constant S1024x1024 .f32 0x00000000#32) (ix2 p q) = ∑ k : Fin 1024, a (ix2 p k) * b (ix2 q k) := by
  refine (Ideal.matmul_constant_zero_apply D none a b (ix2 p q)).trans ?_
  rw [← Equiv.sum_comp (contrEquiv1 D 1024 rfl rfl).symm]
  refine Finset.sum_congr rfl fun k _ => ?_
  have hk := contrEquiv1_symm_val D 1024 rfl rfl k
  have el : D.lhsIdx (ix2 p q) ((contrEquiv1 D 1024 rfl rfl).symm k) = ix2 p k := funext fun c => Fin.ext (by
    match c with
    | ⟨0, _⟩ => exact lhs_row _ _
    | ⟨1, _⟩ => exact (lhs_feat _ _).trans hk)
  have er : D.rhsIdx (ix2 p q) ((contrEquiv1 D 1024 rfl rfl).symm k) = ix2 q k := funext fun c => Fin.ext (by
    match c with
    | ⟨0, _⟩ => exact rhs_row _ _
    | ⟨1, _⟩ => exact (rhs_feat _ _).trans hk)
  rw [el, er]

/-- The bias row, held with two leading unit axes dropped to one and spread over the 1024 token rows, at (p, q) is
    the bias at q. -/
theorem bias_apply (x2 : Vec Ideal S1x1x1024 .f32) (p q : Fin 1024) :
    broadcastTo S1024x1024 (shapeCast S1x1024 x2 shapeCasts_S1x1x1024_S1x1024) broadcasts_S1x1024_S1024x1024 (ix2 p q)
      = x2 (ix3 (0 : Fin 1) (0 : Fin 1) q) := by
  refine (broadcastTo_apply _ broadcasts_S1x1024_S1024x1024 (ix2 p q) (ix2 (0 : Fin 1) q) (fun c => ?_)).trans ?_
  · match c with
    | ⟨0, _⟩ => rfl
    | ⟨1, _⟩ => rfl
  · exact shapeCast_1ab_ab_apply x2 shapeCasts_S1x1x1024_S1x1024 (0 : Fin 1) q

/-- THE STORED BLOCK at (·, p, q): the token rows against the weight rows, plus the bias. -/
theorem stored_apply (x0 x1 : Vec Ideal S1x1024x1024 .f32) (x2 : Vec Ideal S1x1x1024 .f32) (u : Fin 1) (p q : Fin 1024) :
    k0_pay1 (F := Ideal) x0 x1 x2 (ix3 u p q)
      = (∑ k : Fin 1024, x0 (ix3 (0 : Fin 1) p k) * x1 (ix3 (0 : Fin 1) q k)) + x2 (ix3 (0 : Fin 1) (0 : Fin 1) q) := by
  unfold k0_pay1
  refine (shapeCast_ab_1ab_apply _ shapeCasts_S1024x1024_S1x1024x1024 u p q).trans ?_
  refine congrArg₂ (· + ·) ?_ (bias_apply x2 p q)
  refine (product_apply _ _ p q).trans ?_
  refine Finset.sum_congr rfl fun k _ => ?_
  exact congrArg₂ (· * ·) (shapeCast_1ab_ab_apply x0 shapeCasts_S1x1024x1024_S1024x1024 p k)
    (shapeCast_1ab_ab_apply x1 shapeCasts_S1x1024x1024_S1024x1024 q k)

/-- THE STORED BLOCK IS A BLOCK OF THE GROUPED RESULT. Suppose the token block is expert `e`'s group, the weight block
    is tile `n` of expert `e`'s weight rows, and the bias block is tile `n` of expert `e`'s bias. Then what the body
    stores at `y` is the grouped result at expert `e`, the same token, output feature `n · 1024 +` the block's column. -/
theorem stored_is_grouped (x0 x1 : Vec Ideal S1x1024x1024 .f32) (x2 : Vec Ideal S1x1x1024 .f32)
    (xg : S8x1024x1024.Idx → EReal) (w : S8x4096x1024.Idx → EReal) (bg : S8x1x4096.Idx → EReal) (e : Fin 8) (n : Fin 4)
    (h0 : ∀ p k : Fin 1024, x0 (ix3 (0 : Fin 1) p k) = xg (ix3 e p k))
    (h1 : ∀ q k : Fin 1024, x1 (ix3 (0 : Fin 1) q k) = w (ix3 e (GroupedLinear.col n q) k))
    (h2 : ∀ q : Fin 1024, x2 (ix3 (0 : Fin 1) (0 : Fin 1) q) = bg (ix3 e (0 : Fin 1) (GroupedLinear.col n q)))
    (y : S1x1024x1024.Idx) (i : S8x1024x4096.Idx) (hi0 : (i 0).val = e.val) (hi1 : (i 1).val = (y 1).val)
    (hi2 : (i 2).val = n.val * 1024 + (y 2).val) :
    k0_pay1 (F := Ideal) x0 x1 x2 y = GroupedLinear.out xg w bg i := by
  obtain ⟨u, p, q, rfl⟩ : ∃ (u : Fin 1) (p q : Fin 1024), y = ix3 u p q := ⟨y 0, y 1, y 2, eq_ix3 y⟩
  obtain rfl : i = ix3 e p (GroupedLinear.col n q) := funext fun a => Fin.ext (by
    match a with
    | ⟨0, _⟩ => exact hi0
    | ⟨1, _⟩ => exact hi1
    | ⟨2, _⟩ => exact hi2)
  rw [stored_apply, GroupedLinear.out_apply]
  unfold GroupedLinear.entry
  rw [h2 q]
  refine congrArg (· + _) (Finset.sum_congr rfl fun k _ => ?_)
  rw [h0 p k, h1 q k]

end Cert.KernelIdeal.Block

end
-- ==== Proof.RegionValue.lean ====
/-
  The array the region leaves: the grouped result of the arrays the region finds.

  The grid has one point per (expert, tile of 1024 output features). At the point (e, n) the token window holds
  expert `e`'s whole group of rows, the weight window rows n·1024 … n·1024 + 1023 of expert `e`'s weights, the bias window the
  same columns of expert `e`'s bias, and the output window is the block (e, all tokens, columns n·1024 … n·1024 + 1023). So
  what a point writes back is that block of the grouped result, the 32 blocks tile the output array, and the array
  ends holding the grouped result everywhere.
-/
import proofs.«116449_j55551107007175_2_alg».proof.Proof.Gen.KernelIdeal.Frame
import proofs.«116449_j55551107007175_2_alg».proof.Proof.GroupedLinear
import proofs.«116449_j55551107007175_2_alg».proof.Proof.BlockProduct
import Idealize.ShloMosaic.Lib.Pipeline.Value
import Idealize.ShloMosaic.Lib.ValueIdx

noncomputable section

open Idealize.ShloMosaic Idealize.ShloMosaic.TcCoe Idealize.SL.Sem
open Idealize.ShloMosaic.Pipeline (Dat)

namespace Cert.KernelIdeal.Region

open Cert.KernelIdeal Cert.KernelIdeal.Gen Idealize.ShloMosaic.ValueIdx

variable (m : (ℓ : Loc nD τ sig) → Buf (Elt Ideal) ℓ) (ρ : Dev nD → PrngReg)

theorem hz : (![0, 0, 0] : Fin 3 → Nat) = fun _ => 0 := funext fun a => by fin_cases a <;> rfl

/-- The four windows' block indices at a point, related: all sit at the output block's expert; the weight rows and the
    bias columns are at the output block's column tile; every other block index is 0; the expert is below 8 and the
    tile below 4. -/
theorem idx_facts : ∀ t : Fin cfg0.N,
    win0_0.index t (0 : Fin 3) = win0_3.index t (0 : Fin 3) ∧ win0_0.index t (1 : Fin 3) = 0 ∧ win0_0.index t (2 : Fin 3) = 0
    ∧ win0_1.index t (0 : Fin 3) = win0_3.index t (0 : Fin 3) ∧ win0_1.index t (1 : Fin 3) = win0_3.index t (2 : Fin 3)
    ∧ win0_1.index t (2 : Fin 3) = 0
    ∧ win0_2.index t (0 : Fin 3) = win0_3.index t (0 : Fin 3) ∧ win0_2.index t (1 : Fin 3) = 0
    ∧ win0_2.index t (2 : Fin 3) = win0_3.index t (2 : Fin 3)
    ∧ win0_3.index t (1 : Fin 3) = 0 ∧ win0_3.index t (0 : Fin 3) < 8 ∧ win0_3.index t (2 : Fin 3) < 4 :=
  (by decide +kernel : ∀ t : Fin grid0.N, _)

/-- Every (expert, tile) is some point's output block. -/
theorem idx_onto : ∀ (e : Fin 8) (n : Fin 4), ∃ t : Fin cfg0.N, win0_3.index t = ![e.val, 0, n.val] :=
  (by decide +kernel : ∀ (e : Fin 8) (n : Fin 4), ∃ t : Fin grid0.N, win0_3.index t = ![e.val, 0, n.val])

/-- The token block at a point is the group of the output block's expert. -/
theorem tokens_block (c : Dev nD) (t : Fin cfg0.N) (e : Fin 8) (he : win0_3.index t (0 : Fin 3) = e.val) (p k : Fin 1024) :
    (iblk m c 0 t : Vec Ideal S1x1024x1024 .f32) (ix3 (0 : Fin 1) p k) = (V m c main_v0 : S8x1024x1024.Idx → EReal) (ix3 e p k) := by
  obtain ⟨e0, e1, e2, -⟩ := idx_facts t
  unfold iblk
  rw [View.read_apply]
  show V m c main_v0 (((cfg0.win 0).blk t).view.emb (ix3 (0 : Fin 1) p k)) = V m c main_v0 (ix3 e p k)
  refine congrArg (V m c main_v0) (funext fun a => Fin.ext ?_)
  match a with
  | ⟨0, _⟩ => show win0_0.index t (0 : Fin 3) * 1 + 1 * 0 = e.val; omega
  | ⟨1, _⟩ => show win0_0.index t (1 : Fin 3) * 1024 + 1 * p.val = p.val; omega
  | ⟨2, _⟩ => show win0_0.index t (2 : Fin 3) * 1024 + 1 * k.val = k.val; omega

/-- The weight block at a point is the output block's tile of its expert's weight rows. -/
theorem weights_block (c : Dev nD) (t : Fin cfg0.N) (e : Fin 8) (n : Fin 4) (he : win0_3.index t (0 : Fin 3) = e.val)
    (hn : win0_3.index t (2 : Fin 3) = n.val) (q k : Fin 1024) :
    (iblk m c 1 t : Vec Ideal S1x1024x1024 .f32) (ix3 (0 : Fin 1) q k)
      = (V m c main_arg1 : S8x4096x1024.Idx → EReal) (ix3 e (GroupedLinear.col n q) k) := by
  obtain ⟨-, -, -, e3, e4, e5, -⟩ := idx_facts t
  unfold iblk
  rw [View.read_apply]
  show V m c main_arg1 (((cfg0.win 1).blk t).view.emb (ix3 (0 : Fin 1) q k)) = V m c main_arg1 (ix3 e (GroupedLinear.col n q) k)
  refine congrArg (V m c main_arg1) (funext fun a => Fin.ext ?_)
  match a with
  | ⟨0, _⟩ => show win0_1.index t (0 : Fin 3) * 1 + 1 * 0 = e.val; omega
  | ⟨1, _⟩ => show win0_1.index t (1 : Fin 3) * 1024 + 1 * q.val = n.val * 1024 + q.val; omega
  | ⟨2, _⟩ => show win0_1.index t (2 : Fin 3) * 1024 + 1 * k.val = k.val; omega

/-- The bias block at a point is the output block's tile of its expert's bias. -/
theorem bias_block (c : Dev nD) (t : Fin cfg0.N) (e : Fin 8) (n : Fin 4) (he : win0_3.index t (0 : Fin 3) = e.val)
    (hn : win0_3.index t (2 : Fin 3) = n.val) (q : Fin 1024) :
    (iblk m c 2 t : Vec Ideal S1x1x1024 .f32) (ix3 (0 : Fin 1) (0 : Fin 1) q)
      = (V m c main_v1 : S8x1x4096.Idx → EReal) (ix3 e (0 : Fin 1) (GroupedLinear.col n q)) := by
  obtain ⟨-, -, -, -, -, -, e6, e7, e8, -⟩ := idx_facts t
  unfold iblk
  rw [View.read_apply]
  show V m c main_v1 (((cfg0.win 2).blk t).view.emb (ix3 (0 : Fin 1) (0 : Fin 1) q)) = V m c main_v1 (ix3 e (0 : Fin 1) (GroupedLinear.col n q))
  refine congrArg (V m c main_v1) (funext fun a => Fin.ext ?_)
  match a with
  | ⟨0, _⟩ => show win0_2.index t (0 : Fin 3) * 1 + 1 * 0 = e.val; omega
  | ⟨1, _⟩ => show win0_2.index t (1 : Fin 3) * 1 + 1 * 0 = 0; omega
  | ⟨2, _⟩ => show win0_2.index t (2 : Fin 3) * 1024 + 1 * q.val = n.val * 1024 + q.val; omega

/-- WHAT A POINT WRITES BACK is its block of the grouped result of the arrays as the region finds them. -/
theorem flushed_eq (c : Dev nD) (t : Fin cfg0.N) :
    (dats m 0 c).flushed 3 t = ((cfg0.win 3).blk t).view.read (Elt Ideal)
      (GroupedLinear.out (V m c main_v0) (V m c main_arg1) (V m c main_v1)) := by
  show (cfg0.win 3).cut (grid0.coords t) ((dats m 0 c).after 3 t) = _
  rw [after0_3]
  unfold out0_3
  rw [View.canon_unit_zero hz]
  simp only [View.ld_unit_zero (S := S1x1024x1024) hz, View.ld_unit_zero (S := S1x1x1024) hz]
  obtain ⟨-, -, -, -, -, -, -, -, -, e9, e10, e11⟩ := idx_facts t
  funext j
  have hj0 : (j 0).val < 1 := (j 0).isLt
  refine Block.stored_is_grouped (iblk m c 0 t) (iblk m c 1 t) (iblk m c 2 t) (V m c main_v0) (V m c main_arg1) (V m c main_v1)
    ⟨win0_3.index t (0 : Fin 3), e10⟩ ⟨win0_3.index t (2 : Fin 3), e11⟩
    (tokens_block m c t ⟨win0_3.index t (0 : Fin 3), e10⟩ rfl)
    (weights_block m c t ⟨win0_3.index t (0 : Fin 3), e10⟩ ⟨win0_3.index t (2 : Fin 3), e11⟩ rfl rfl)
    (bias_block m c t ⟨win0_3.index t (0 : Fin 3), e10⟩ ⟨win0_3.index t (2 : Fin 3), e11⟩ rfl rfl)
    (win0_3.xinj (grid0.coords t) j) (((cfg0.win 3).blk t).view.emb j) ?_ ?_ ?_
  · show win0_3.index t (0 : Fin 3) * 1 + 1 * (j 0).val = win0_3.index t (0 : Fin 3); omega
  · show win0_3.index t (1 : Fin 3) * 1024 + 1 * (j 1).val = (j 1).val; omega
  · show win0_3.index t (2 : Fin 3) * 1024 + 1 * (j 2).val = win0_3.index t (2 : Fin 3) * 1024 + (j 2).val; omega

/-- An index of the output array is in point `t`'s block iff each coordinate is in the block's range on its axis. -/
theorem mem_blk (t : Fin cfg0.N) (i : S8x1024x4096.Idx) :
    i ∈ ((cfg0.win 3).blk t).view.set ↔ ∀ a : Fin 3, win0_3.index t a * S1x1024x1024.size a ≤ (i a).val
      ∧ (i a).val < win0_3.index t a * S1x1024x1024.size a + S1x1024x1024.size a := by
  show i ∈ ((View.whole main_v2).slice (win0_3.rect t)).set ↔ _
  rw [View.set_slice_whole, Rect.mem_set_unit]
  exact Iff.rfl

/-- THE BLOCKS TILE THE ARRAY: the index (e, token, o) is in the block of the point at (e, o / 1024). -/
theorem covered (i : S8x1024x4096.Idx) :
    ∃ t : Fin cfg0.N, (cfg0.win 3).flush t = true ∧ i ∈ ((cfg0.win 3).blk t).view.set := by
  have hi0 : (i 0).val < 8 := (i 0).isLt
  have hi1 : (i 1).val < 1024 := (i 1).isLt
  have hi2 : (i 2).val < 4096 := (i 2).isLt
  obtain ⟨t, ht⟩ := idx_onto ⟨(i 0).val, hi0⟩ ⟨(i 2).val / 1024, by omega⟩
  have q0 : win0_3.index t (0 : Fin 3) = (i 0).val := congrFun ht 0
  have q1 : win0_3.index t (1 : Fin 3) = 0 := congrFun ht 1
  have q2 : win0_3.index t (2 : Fin 3) = (i 2).val / 1024 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- THE OUTPUT ARRAY after the region: the grouped result of the arrays the region finds. -/
theorem final (c : Dev nD) :
    (dats m 0 c).arrAt 3 cfg0.N = GroupedLinear.out (V m c main_v0) (V m c main_arg1) (V m c main_v1) :=
  (dats m 0 c).arrAt_eq_of_cover 3 (GroupedLinear.out (V m c main_v0) (V m c main_arg1) (V m c main_v1))
    (fun t _ => flushed_eq m c t) covered

end Cert.KernelIdeal.Region

end
-- ==== Proof.KernelRun.lean ====
/-
  The kernel program's run, read: its result is the grouped result of its arguments, flattened.

  Before the region the program views the tokens [8192, 1024] as 8 groups [8, 1024, 1024] and the bias [8, 4096] with a unit
  middle axis [8, 1, 4096]; these are the arrays the token and bias windows read, and the weights are read as launched.
  After the region it views the output [8, 1024, 4096] as [8192, 4096]. So the result is that flattening of the grouped
  result of (grouped tokens, weights, bias with its unit axis), and the arguments end as they were launched.
-/
import proofs.«116449_j55551107007175_2_alg».proof.Proof.RegionValue
import Idealize.ShloMosaic.Lib.StableHlo.Run

noncomputable section

open Idealize.ShloMosaic Idealize.ShloMosaic.TcCoe Idealize.SL.Sem
open Idealize.ShloMosaic.Pipeline (Dat)

namespace Cert.KernelIdeal.Whole

open Cert.KernelIdeal Cert.KernelIdeal.Gen Idealize.ShloMosaic.ValueIdx Idealize.ShloMosaic.StableHlo

variable (m : (ℓ : Loc nD τ sig) → Buf (Elt Ideal) ℓ) (ρ : Dev nD → PrngReg)

/-- The token window's array, as the region finds it: the tokens viewed as 8 groups. -/
theorem tokens_entry (c : Dev nD) :
    (V m c main_v0 : S8x1024x1024.Idx → EReal)
      = shapeCast S8x1024x1024 (m ((c : Thread nD τ).loc main_arg0)) shapeCasts_S8192x1024_S8x1024x1024 := by
  show StableHlo.after hostOps0 (fun b => m (c, b)) (Proc.devRef .tc main_v0) = _
  after_results
  rfl

/-- The bias window's array, as the region finds it: the bias with a unit middle axis. -/
theorem bias_entry (c : Dev nD) :
    (V m c main_v1 : S8x1x4096.Idx → EReal)
      = shapeCast S8x1x4096 (m ((c : Thread nD τ).loc main_arg2)) shapeCasts_S8x4096_S8x1x4096 := by
  show StableHlo.after hostOps0 (fun b => m (c, b)) (Proc.devRef .tc main_v1) = _
  after_results
  rfl

/-- The grouped result of the arguments as launched. -/
abbrev grouped (c : Dev nD) : S8x1024x4096.Idx → EReal :=
  GroupedLinear.out (shapeCast S8x1024x1024 (m ((c : Thread nD τ).loc main_arg0)) shapeCasts_S8192x1024_S8x1024x1024)
    (m ((c : Thread nD τ).loc main_arg1))
    (shapeCast S8x1x4096 (m ((c : Thread nD τ).loc main_arg2)) shapeCasts_S8x4096_S8x1x4096)

/-- The output array after the region, in the arguments as launched. -/
theorem region_out (c : Dev nD) : (dats m 0 c).arrAt 3 cfg0.N = grouped m c := by
  rw [Region.final m c, tokens_entry m c, bias_entry m c, V_main_arg1 m c]

/-- The program's result after the line that follows the region: the output array flattened. -/
theorem result_eq (c : Dev nD) :
    Pipeline.afterTail₀ cfgs (dats m) 0 (V0 m) [hostOps1] c main_v3
      = shapeCast S8192x4096 (grouped m c) shapeCasts_S8x1024x4096_S8192x4096 := by
  unfold Pipeline.afterTail₀
  show StableHlo.after hostOps1 _ (Proc.devRef .tc main_v3) = _
  after_results
  exact congrArg (fun y => shapeCast S8192x4096 y shapeCasts_S8x1024x4096_S8192x4096)
    ((Pipeline.withArrays_arr spec0 launch0.win.arr_inj c _ _ 3).trans (region_out m c))

/-- THE RUN, READ: the result is the flattened grouped result of the arguments, which end unchanged. -/
theorem run : θ_run defs (onTc (τ := τ) (main (F := Ideal))) ⟨m, fun _ => 0, ρ⟩ fun r => ∀ c : Dev nD,
      r.2.mem ((c.tc : Thread nD τ).loc main_v3) = shapeCast S8192x4096 (grouped m c) shapeCasts_S8x1024x4096_S8192x4096
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Whole

end
-- ==== Proof.ReferenceValue.lean ====
/-
  The reference computes the grouped result.

  The reference views the tokens as 8 groups of 1024 rows, takes one batched product over the experts, contracting the
  feature axis of the grouped tokens against the feature axis of the weights, spreads each expert's bias over its 1024
  tokens through a unit middle axis, and adds. Index by index that is (∑ k, x e t k · w e o k) + b e o. The bias with a
  unit middle axis inserted is the same array whether the axis is inserted by a reshape or by a broadcast: both read
  the bias at (e, o).
-/
import proofs.«116449_j55551107007175_2_alg».proof.Proof.Gen.ReferenceIdeal.Read
import proofs.«116449_j55551107007175_2_alg».proof.Proof.GroupedLinear
import Idealize.ShloMosaic.Lib.Pipeline.Value
import Idealize.ShloMosaic.Lib.ValueIdx

noncomputable section

open scoped BigOperators

namespace Cert.ReferenceIdeal.Grouped

open Cert.ReferenceIdeal Cert.ReferenceIdeal.Gen Cert.ReferenceIdeal.Read Idealize.ShloMosaic Idealize.ShloMosaic.ValueIdx

/-- A bias array [8, 4096] reshaped to [8, 1, 4096] reads, at (e, 0, o), the bias at (e, o). -/
theorem bias_reshaped (x2 : S8x4096.Idx → EReal) (h : S8x4096.ShapeCasts S8x1x4096) (e : Fin 8) (o : Fin 4096) :
    shapeCast S8x1x4096 x2 h (ix3 e (0 : Fin 1) o) = x2 (ix2 e o) :=
  shapeCast_apply x2 h _ _ (by
    rw [Shape.rowMajor_val_two, Shape.rowMajor_val_three]
    show e.val * 4096 + o.val = (e.val * 1 + 0) * 4096 + o.val
    omega)

/-- THE REFERENCE'S SUM, before its final flattening, is the grouped result of the grouped tokens, the weights and the
    bias with its unit axis. -/
theorem sum_eq_grouped (x0 : (⟨S8192x1024, .f32⟩ : BufTy).Contents (Elt Ideal)) (x1 : (⟨S8x4096x1024, .f32⟩ : BufTy).Contents (Elt Ideal))
    (x2 : (⟨S8x4096, .f32⟩ : BufTy).Contents (Elt Ideal)) (h0 : S8192x1024.ShapeCasts S8x1024x1024) (h2 : S8x4096.ShapeCasts S8x1x4096) :
    val_main_v4 (F := Ideal) x0 x1 x2 = GroupedLinear.out (shapeCast S8x1024x1024 x0 h0) x1 (shapeCast S8x1x4096 x2 h2) := by
  funext i
  obtain ⟨e, t, o, rfl⟩ : ∃ (e : Fin 8) (t : Fin 1024) (o : Fin 4096), i = ix3 e t o := ⟨i 0, i 1, i 2, eq_ix3 i⟩
  have el : ∀ k : Fin 1024, lidx_main_v1 (ix3 e t o) k = ix3 e t k := fun k => funext fun a => Fin.ext (by
    match a with
    | ⟨0, _⟩ => rfl
    | ⟨1, _⟩ => rfl
    | ⟨2, _⟩ => rfl)
  have er : ∀ k : Fin 1024, ridx_main_v1 (ix3 e t o) k = ix3 e o k := fun k => funext fun a => Fin.ext (by
    match a with
    | ⟨0, _⟩ => rfl
    | ⟨1, _⟩ => rfl
    | ⟨2, _⟩ => rfl)
  have eb : idx_main_v2 (idx_main_v3 (ix3 e t o)) = ix2 e o := funext fun a => Fin.ext (by
    match a with
    | ⟨0, _⟩ => rfl
    | ⟨1, _⟩ => rfl)
  rw [val_main_v4_apply, val_main_v1_apply, val_main_v3_apply, val_main_v2_apply, GroupedLinear.out_apply, eb]
  unfold GroupedLinear.entry
  rw [bias_reshaped]
  show (∑ k : Fin 1024, _) + _ = _
  refine congrArg (· + _) (Finset.sum_congr rfl fun k _ => ?_)
  rw [el, er]
  rfl

end Cert.ReferenceIdeal.Grouped

end
-- ==== Proof.lean ====
/-
  A grouped linear layer: 8192 tokens, sorted by expert into 8 groups of 1024, each multiplied by its own expert's
  weight matrix (4096 output features by 1024 input features) with that expert's bias added.

  Both programs compute, at token `e · 1024 + t` and output feature `o`,

      (∑ k, x (e · 1024 + t) k · w e o k) + b e o

  on the extended reals. The kernel does it block by block: one grid point per (expert, tile of 1024 output features),
  each multiplying the expert's 1024 token rows against the tile's 1024 weight rows and adding the tile's bias row; the
  32 output blocks tile the grouped result, which is then flattened over the token axis. The reference takes one batched
  product over the experts, adds the bias spread over the tokens, and flattens the same way. The two are the same sum
  term by term (`GroupedLinear.out`), so no algebraic law and no finiteness of the inputs is used; the narrowing of the
  product's operands in the kernel is the identity on the extended reals.

  The frames of the two kernel programs are their generated frame runs, the reference's frame is its generated run
  with the result dropped, and nothing was rewritten between the kernel and its idealization.
-/
import proofs.«116449_j55551107007175_2_alg».proof.Defs
import proofs.«116449_j55551107007175_2_alg».proof.Proof.Gen.Kernel
import proofs.«116449_j55551107007175_2_alg».proof.Proof.Gen.Kernel.Skeleton
import proofs.«116449_j55551107007175_2_alg».proof.Proof.Gen.Kernel.Launch
import proofs.«116449_j55551107007175_2_alg».proof.Proof.Gen.Kernel.Points
import proofs.«116449_j55551107007175_2_alg».proof.Proof.Gen.Kernel.Frame
import proofs.«116449_j55551107007175_2_alg».proof.Proof.Gen.KernelIdeal
import proofs.«116449_j55551107007175_2_alg».proof.Proof.Gen.KernelIdeal.Skeleton
import proofs.«116449_j55551107007175_2_alg».proof.Proof.Gen.KernelIdeal.Launch
import proofs.«116449_j55551107007175_2_alg».proof.Proof.Gen.KernelIdeal.Points
import proofs.«116449_j55551107007175_2_alg».proof.Proof.Gen.KernelIdeal.Frame
import proofs.«116449_j55551107007175_2_alg».proof.Proof.Gen.ReferenceIdeal
import proofs.«116449_j55551107007175_2_alg».proof.Proof.Gen.Pre_finite_inputs
import proofs.«116449_j55551107007175_2_alg».proof.Proof.Gen.ReferenceIdeal.Run
import proofs.«116449_j55551107007175_2_alg».proof.Proof.Gen.ReferenceIdeal.Read
import proofs.«116449_j55551107007175_2_alg».proof.Proof.KernelRun
import proofs.«116449_j55551107007175_2_alg».proof.Proof.ReferenceValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and keeps its arguments: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end with the flattened grouped result of those
    arguments: the kernel by its region's blocks, the reference by its batched product, the same function. -/
theorem algebraic : Cert.algebraic_KernelIdeal_ReferenceIdeal := by
  intro m ρ m' ρ' _ hagree
  refine ⟨fun c => shapeCast Cert.KernelIdeal.S8192x4096 (Cert.KernelIdeal.Whole.grouped m c)
    Cert.KernelIdeal.Gen.shapeCasts_S8x1024x4096_S8192x4096, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v5_eq]
  unfold Cert.ReferenceIdeal.Read.val_main_v5
  rw [Cert.ReferenceIdeal.Grouped.sum_eq_grouped _ _ _ Cert.KernelIdeal.Gen.shapeCasts_S8192x1024_S8x1024x1024
    Cert.KernelIdeal.Gen.shapeCasts_S8x4096_S8x1x4096, (hagree c).1, (hagree c).2.1, (hagree c).2.2.1]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
